-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x384x384 : Shape := ⟨4, ![64, 3, 384, 384]⟩
abbrev S64x24x24 : Shape := ⟨3, ![64, 24, 24]⟩
abbrev S_ : Shape := ⟨0, ![]⟩

class Facts : Prop where
  bcast_S_S64x3x384x384 : S_.BroadcastsInDim S64x3x384x384 (![] : Fin 0 → Fin S64x3x384x384.rank)
  reducesTo_S64x3x384x384_S_d0_1_2_3 : S64x3x384x384.ReducesTo [0, 1, 2, 3] S_
  h_S_ : 0 < S_.numel
  bcast_S_S64x24x24 : S_.BroadcastsInDim S64x24x24 (![] : Fin 0 → Fin S64x24x24.rank)
  reducesTo_S64x24x24_S_d0_1_2 : S64x24x24.ReducesTo [0, 1, 2] S_

variable [Facts]

def fn {F : FTy → Type} [FloatOps F] (main_arg0 : FVec F S64x3x384x384 .f32) (main_arg1 : FVec F S64x24x24 .f32) : IVec S_ 1 :=
  let main_v0 : FVec F S64x3x384x384 .f32 := Host.absf main_arg0
  let main_cst : FVec F S_ .f32 := constant S_ .f32 0x7F800000#32
  let main_v1 : FVec F S64x3x384x384 .f32 := broadcastInDim S64x3x384x384 ![] bcast_S_S64x3x384x384 main_cst
  let main_v2 : IVec S64x3x384x384 1 := cmpf .olt main_v0 main_v1
  let main_c : IVec S_ 1 := constantI S_ 1 1#1
  let main_v3 : IVec S_ 1 := (fun x v => Host.reduce IntOp.andi x v reducesTo_S64x3x384x384_S_d0_1_2_3 h_S_) main_v2 main_c
  let main_v4 : FVec F S64x24x24 .f32 := Host.absf main_arg1
  let main_cst_0 : FVec F S_ .f32 := constant S_ .f32 0x7F800000#32
  let main_v5 : FVec F S64x24x24 .f32 := broadcastInDim S64x24x24 ![] bcast_S_S64x24x24 main_cst_0
  let main_v6 : IVec S64x24x24 1 := cmpf .olt main_v4 main_v5
  let main_c_1 : IVec S_ 1 := constantI S_ 1 1#1
  let main_v7 : IVec S_ 1 := (fun x v => Host.reduce IntOp.andi x v reducesTo_S64x24x24_S_d0_1_2 h_S_) main_v6 main_c_1
  let main_v8 : IVec S_ 1 := andi main_v3 main_v7
  main_v8
-- ==== Kernel.lean ====
abbrev S64x3x384x384 : Shape := ⟨4, ![64, 3, 384, 384]⟩
abbrev S64x24x24 : Shape := ⟨3, ![64, 24, 24]⟩
abbrev S384 : Shape := ⟨1, ![384]⟩
abbrev S_ : Shape := ⟨0, ![]⟩
abbrev S384x1 : Shape := ⟨2, ![384, 1]⟩
abbrev S24 : Shape := ⟨1, ![24]⟩
abbrev S1x24 : Shape := ⟨2, ![1, 24]⟩
abbrev S384x24 : Shape := ⟨2, ![384, 24]⟩
abbrev S2x3x384x384 : Shape := ⟨4, ![2, 3, 384, 384]⟩
abbrev S2x24x24 : Shape := ⟨3, ![2, 24, 24]⟩
abbrev S1x24x24 : Shape := ⟨3, ![1, 24, 24]⟩
abbrev S24x24 : Shape := ⟨2, ![24, 24]⟩
abbrev S384x384 : Shape := ⟨2, ![384, 384]⟩
abbrev S1x3x384x384 : Shape := ⟨4, ![1, 3, 384, 384]⟩
abbrev S3x384x384 : Shape := ⟨3, ![3, 384, 384]⟩
abbrev S1x384x384 : Shape := ⟨3, ![1, 384, 384]⟩

abbrev nBuf : Space → Nat
  | .hbm => 29
  | .vmem => 7
  | .smem => 0
  | _ => 0

abbrev bufTy : (tb : Table) → Fin (tcTables nBuf tb) → BufTy
  | .hbm, ⟨0, _⟩ => ⟨S64x3x384x384, .f32⟩
  | .hbm, ⟨1, _⟩ => ⟨S64x24x24, .f32⟩
  | .hbm, ⟨2, _⟩ => ⟨S384, .i32⟩
  | .hbm, ⟨3, _⟩ => ⟨S_, .i32⟩
  | .hbm, ⟨4, _⟩ => ⟨S_, .i32⟩
  | .hbm, ⟨5, _⟩ => ⟨S384, .i32⟩
  | .hbm, ⟨6, _⟩ => ⟨S384, .i32⟩
  | .hbm, ⟨7, _⟩ => ⟨S384, .i32⟩
  | .hbm, ⟨8, _⟩ => ⟨S_, .i32⟩
  | .hbm, ⟨9, _⟩ => ⟨S384, .i32⟩
  | .hbm, ⟨10, _⟩ => ⟨S384, .i1⟩
  | .hbm, ⟨11, _⟩ => ⟨S384, .i32⟩
  | .hbm, ⟨12, _⟩ => ⟨S384, .i32⟩
  | .hbm, ⟨13, _⟩ => ⟨S_, .i32⟩
  | .hbm, ⟨14, _⟩ => ⟨S384, .i32⟩
  | .hbm, ⟨15, _⟩ => ⟨S384, .i1⟩
  | .hbm, ⟨16, _⟩ => ⟨S384, .i1⟩
  | .hbm, ⟨17, _⟩ => ⟨S_, .i32⟩
  | .hbm, ⟨18, _⟩ => ⟨S384, .i32⟩
  | .hbm, ⟨19, _⟩ => ⟨S384, .i32⟩
  | .hbm, ⟨20, _⟩ => ⟨S384, .i32⟩
  | .hbm, ⟨21, _⟩ => ⟨S384x1, .i32⟩
  | .hbm, ⟨22, _⟩ => ⟨S24, .i32⟩
  | .hbm, ⟨23, _⟩ => ⟨S1x24, .i32⟩
  | .hbm, ⟨24, _⟩ => ⟨S384x24, .i32⟩
  | .hbm, ⟨25, _⟩ => ⟨S384x24, .i32⟩
  | .hbm, ⟨26, _⟩ => ⟨S384x24, .i1⟩
  | .hbm, ⟨27, _⟩ => ⟨S384x24, .bf16⟩
  | .hbm, ⟨28, _⟩ => ⟨S64x3x384x384, .f32⟩
  | .local _ .vmem, ⟨0, _⟩ => ⟨S2x3x384x384, .f32⟩
  | .local _ .vmem, ⟨1, _⟩ => ⟨S2x3x384x384, .f32⟩
  | .local _ .vmem, ⟨2, _⟩ => ⟨S2x24x24, .f32⟩
  | .local _ .vmem, ⟨3, _⟩ => ⟨S2x24x24, .f32⟩
  | .local _ .vmem, ⟨4, _⟩ => ⟨S384x24, .bf16⟩
  | .local _ .vmem, ⟨5, _⟩ => ⟨S2x3x384x384, .f32⟩
  | .local _ .vmem, ⟨6, _⟩ => ⟨S2x3x384x384, .f32⟩
  | _, _ => ⟨S64x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x3x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x24x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x24 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x3x384x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S384 : S_.BroadcastsInDim S384 (![] : Fin 0 → Fin S384.rank)
  bcast_S384_S384x1_0 : S384.BroadcastsInDim S384x1 (![0] : Fin 1 → Fin S384x1.rank)
  bcast_S24_S1x24_1 : S24.BroadcastsInDim S1x24 (![1] : Fin 1 → Fin S1x24.rank)
  bcast_S384x1_S384x24_0_1 : S384x1.BroadcastsInDim S384x24 (![0, 1] : Fin 2 → Fin S384x24.rank)
  bcast_S1x24_S384x24_0_1 : S1x24.BroadcastsInDim S384x24 (![0, 1] : Fin 2 → Fin S384x24.rank)
  inb_S384x24_S384x24_0_0 : ∀ a, (![0, 0] : Fin 2 → Nat) a + S384x24.size a ≤ S384x24.size a
  h_S384x24 : 0 < S384x24.numel
  shapeCasts_S384x24_S384x24 : S384x24.ShapeCasts S384x24
  inb_S2x24x24_S1x24x24_0_0_0 : ∀ a, (![0, 0, 0] : Fin 3 → Nat) a + S1x24x24.size a ≤ S2x24x24.size a
  h_S1x24x24 : 0 < S1x24x24.numel
  shapeCasts_S1x24x24_S24x24 : S1x24x24.ShapeCasts S24x24
  natLt_1_32 : 1 < 32
  bitsLt_bf16_f32 : FTy.bits .bf16 < FTy.bits .f32
  inb_S2x3x384x384_S1x3x384x384_0_0_0_0 : ∀ a, (![0, 0, 0, 0] : Fin 4 → Nat) a + S1x3x384x384.size a ≤ S2x3x384x384.size a
  h_S1x3x384x384 : 0 < S1x3x384x384.numel
  shapeCasts_S1x3x384x384_S3x384x384 : S1x3x384x384.ShapeCasts S3x384x384
  shapeCasts_S384x384_S1x384x384 : S384x384.ShapeCasts S1x384x384
  broadcasts_S1x384x384_S3x384x384 : S1x384x384.Broadcasts S3x384x384
  shapeCasts_S3x384x384_S1x3x384x384 : S3x384x384.ShapeCasts S1x3x384x384
  inb_S2x24x24_S1x24x24_1_0_0 : ∀ a, (![1, 0, 0] : Fin 3 → Nat) a + S1x24x24.size a ≤ S2x24x24.size a
  inb_S2x3x384x384_S1x3x384x384_1_0_0_0 : ∀ a, (![1, 0, 0, 0] : Fin 4 → Nat) a + S1x3x384x384.size a ≤ S2x3x384x384.size a
  dot_S384x24_S24x24_S384x24_1_0_0_1_n_n_wf : DotDims.WF S384x24 S24x24 S384x24 [1] [0] [0] [1] [] []
  dot_S384x24_S384x24_S384x384_1_1_0_0_n_n_wf : DotDims.WF S384x24 S384x24 S384x384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3x384x384.size a ≤ S64x3x384x384.size a
  hwx0_0 : ∀ i : grid0.Coords, EltTy.bits .f32 = 32 ∨ (Rect.block (s := S64x3x384x384) S2x3x384x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x24x24.size a ≤ S64x24x24.size a
  hwx0_1 : ∀ i : grid0.Coords, EltTy.bits .f32 = 32 ∨ (Rect.block (s := S64x24x24) S2x24x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x24.size a ≤ S384x24.size a
  hwx0_2 : ∀ i : grid0.Coords, EltTy.bits .bf16 = 32 ∨ (Rect.block (s := S384x24) S384x24.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x3x384x384.size a ≤ S64x3x384x384.size a
  hwx0_3 : ∀ i : grid0.Coords, EltTy.bits .f32 = 32 ∨ (Rect.block (s := S64x3x384x384) S2x3x384x384.size (cc0_transform_3 i) (hinb0_3 i)).WholeWords (EltTy.packing .f32)

variable [Facts₀]

def dot_S384x24_S24x24_S384x24_1_0_0_1_n_n : DotDims S384x24 S24x24 S384x24 where
  lhsContracting := [1]
  rhsContracting := [0]
  lhsNonContracting := [0]
  rhsNonContracting := [1]
  lhsBatch := []
  rhsBatch := []
  wf := dot_S384x24_S24x24_S384x24_1_0_0_1_n_n_wf
def dot_S384x24_S384x24_S384x384_1_1_0_0_n_n : DotDims S384x24 S384x24 S384x384 where
  lhsContracting := [1]
  rhsContracting := [1]
  lhsNonContracting := [0]
  rhsNonContracting := [0]
  lhsBatch := []
  rhsBatch := []
  wf := dot_S384x24_S384x24_S384x384_1_1_0_0_n_n_wf

abbrev win0_0 : Pipeline.Window sig grid0 :=
  Pipeline.Window.ofSpec (Memref.whole main_arg0) S2x3x384x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x24x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S384x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2x3x384x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x3x384x384 : Shape := ⟨4, ![64, 3, 384, 384]⟩
abbrev S64x24x24 : Shape := ⟨3, ![64, 24, 24]⟩
abbrev S_ : Shape := ⟨0, ![]⟩
abbrev S64x1x24x1x24x1 : Shape := ⟨6, ![64, 1, 24, 1, 24, 1]⟩
abbrev S64x3x24x16x24x16 : Shape := ⟨6, ![64, 3, 24, 16, 24, 16]⟩

abbrev nBuf : Space → Nat
  | .hbm => 12
  | .vmem => 0
  | .smem => 0
  | _ => 0

abbrev bufTy : (tb : Table) → Fin (tcTables nBuf tb) → BufTy
  | .hbm, ⟨0, _⟩ => ⟨S64x3x384x384, .f32⟩
  | .hbm, ⟨1, _⟩ => ⟨S64x24x24, .f32⟩
  | .hbm, ⟨2, _⟩ => ⟨S_, .f32⟩
  | .hbm, ⟨3, _⟩ => ⟨S64x24x24, .f32⟩
  | .hbm, ⟨4, _⟩ => ⟨S64x24x24, .i1⟩
  | .hbm, ⟨5, _⟩ => ⟨S64x24x24, .f32⟩
  | .hbm, ⟨6, _⟩ => ⟨S64x24x24, .f32⟩
  | .hbm, ⟨7, _⟩ => ⟨S64x1x24x1x24x1, .f32⟩
  | .hbm, ⟨8, _⟩ => ⟨S64x3x24x16x24x16, .f32⟩
  | .hbm, ⟨9, _⟩ => ⟨S64x3x24x16x24x16, .f32⟩
  | .hbm, ⟨10, _⟩ => ⟨S64x3x24x16x24x16, .f32⟩
  | .hbm, ⟨11, _⟩ => ⟨S64x3x384x384, .f32⟩
  | _, _ => ⟨S64x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S_S64x24x24 : S_.BroadcastsInDim S64x24x24 (![] : Fin 0 → Fin S64x24x24.rank)
  transposes_S64x24x24_S64x24x24_0_2_1 : S64x24x24.Transposes [0, 2, 1] S64x24x24
  bcast_S64x24x24_S64x1x24x1x24x1_0_2_4 : S64x24x24.BroadcastsInDim S64x1x24x1x24x1 (![0, 2, 4] : Fin 3 → Fin S64x1x24x1x24x1.rank)
  shapeCasts_S64x3x384x384_S64x3x24x16x24x16 : S64x3x384x384.ShapeCasts S64x3x24x16x24x16
  bcast_S64x1x24x1x24x1_S64x3x24x16x24x16_0_1_2_3_4_5 : S64x1x24x1x24x1.BroadcastsInDim S64x3x24x16x24x16 (![0, 1, 2, 3, 4, 5] : Fin 6 → Fin S64x3x24x16x24x16.rank)
  shapeCasts_S64x3x24x16x24x16_S64x3x384x384 : S64x3x24x16x24x16.ShapeCasts S64x3x384x384

variable [Facts₀]

class Facts : Prop extends Facts₀ where

variable [Facts]
-- ==== Proof.Spec.lean ====
/-
  The function both programs compute, and the one law that the kernel's side needs.

  An image batch `x : [64, 3, 384, 384]` is cut into 16 × 16 patches; a sample array `mask : [64, 24, 24]`, indexed
  (batch, patch column, patch row), decides for each patch whether it is kept: a patch is kept exactly when its sample
  is at least one half. The result is `x` with every dropped patch set to zero:

      occluded x mask (b, c, h, w) = x (b, c, h, w) · keep (mask (b, w / 16, h / 16)),      keep μ = 1 if μ ≥ ½, else 0.

  The reference multiplies `x`, viewed as [64, 3, 24, 16, 24, 16], by the transposed keep flags broadcast over the
  channel and the two in-patch axes. The kernel never forms the per-pixel flags by a broadcast: it spreads the 24 × 24
  flags of one image to 384 × 384 by two products with the 0/1 selection matrix `E (r, k) = [r / 16 = k]`,

      keepFull (h, w) = Σ_k E (h, k) · (Σ_j E (w, j) · keep (j, k)),

  and a sum against one row of `E` has exactly one term that is not zero (`sum_sel_mul`), so
  keepFull (h, w) = keep (w / 16, h / 16). On the extended reals `0 · y = 0` and `1 · y = y` for EVERY `y`, the
  infinities included, and a sum of zeros is zero, so the law needs no finiteness of `x` or `mask`.
-/
import Idealize.ShloMosaic.PureOps.Ideal
import Idealize.ShloMosaic.Lib.ValueIdx

noncomputable section

open scoped BigOperators

namespace Cert.Occlude

open Idealize.ShloMosaic Idealize.ShloMosaic.ValueIdx

/-- The keep flag of one sample as an extended real: `1` when the sample is at least one half (the f32 word
    `0x3F000000`), else `0` — the comparison's bit read as a number. -/
def keep (μ : EReal) : EReal := (((Ideal.cmp .oge μ (Ideal.ofBits .f32 0x3F000000#32)).toNat : ℝ) : EReal)

/-- The patch (row or column) a pixel coordinate lies in. -/
def patch (r : Fin 384) : Fin 24 := ⟨r.val / 16, by have := r.isLt; omega⟩

/-- THE SPECIFICATION: `x` with the dropped patches zeroed. The sample of pixel (h, w) of image `b` is
    `mask (b, w / 16, h / 16)`: the sample array is indexed patch COLUMN first. -/
def occluded (x : (⟨4, ![64, 3, 384, 384]⟩ : Shape).Idx → EReal) (mask : (⟨3, ![64, 24, 24]⟩ : Shape).Idx → EReal) :
    (⟨4, ![64, 3, 384, 384]⟩ : Shape).Idx → EReal :=
  fun i => x i * keep (mask (ix3 (i 0) (patch (i 3)) (patch (i 2))))

/-- Entry (r, k) of the selection matrix: `1` when pixel coordinate `r` lies in patch `k`, else `0`. -/
def sel (r : Fin 384) (k : Fin 24) : EReal := if r.val / 16 = k.val then 1 else 0

/-- A sum against row `r` of the selection matrix picks the term of `r`'s patch: every other term is `0 · f k = 0`,
    which holds on the extended reals whatever `f k` is. -/
theorem sum_sel_mul (r : Fin 384) (f : Fin 24 → EReal) : ∑ k : Fin 24, sel r k * f k = f (patch r) := by
  rw [Finset.sum_eq_single (patch r)]
  · unfold sel patch
    rw [if_pos rfl, one_mul]
  · intro k _ hk
    unfold sel
    rw [if_neg (fun h => hk (Fin.ext h.symm)), zero_mul]
  · intro h
    exact absurd (Finset.mem_univ _) h

end Cert.Occlude

end
-- ==== Proof.MatmulRead.lean ====
/-
  The kernel's two matrix products read at an index, at the ideal values. Both contract ONE axis of extent 24 and
  accumulate into the zero splat, so each entry is a plain 24-term sum:

      first  (contracting the left operand's columns with the right operand's ROWS):     (A · B) (r, k)  = Σ_j A (r, j) · B (j, k)
      second (contracting the left operand's columns with the right operand's COLUMNS):  (A · Bᵀ) (h, w) = Σ_k A (h, k) · B (w, k)

  The dimension numbers name each operand index as a function of the result index and of a one-coordinate contraction
  index; the sum is re-indexed along "a one-coordinate index is its coordinate".
-/
import proofs.«169381_j64433099374846_2_alg».proof.Proof.Gen.KernelIdeal
import Idealize.ShloMosaic.PureOps.Ideal.Laws
import Idealize.ShloMosaic.Lib.ValueIdx

noncomputable section

open scoped BigOperators

namespace Cert.KernelIdeal.MatmulRead

open Cert.KernelIdeal Cert.KernelIdeal.Gen
open Idealize.ShloMosaic Idealize.ShloMosaic.ValueIdx

/-- The first product's dimension numbers ([384, 24] · [24, 24]). -/
abbrev dA := dot_S384x24_S24x24_S384x24_1_0_0_1_n_n
/-- The second product's dimension numbers ([384, 24] · [384, 24]ᵀ). -/
abbrev dB := dot_S384x24_S384x24_S384x384_1_1_0_0_n_n

/-! ### The operand indices, coordinate by coordinate -/

theorem dA_lhs_0 (i : S384x24.Idx) (q : dA.contr.Idx) : (dA.lhsIdx i q 0).val = (i 0).val := by
  unfold DotDims.lhsIdx
  rw [dif_neg (show ¬(0 : Fin S384x24.rank) ∈ dA.lhsBatch by decide),
    dif_pos (show (0 : Fin S384x24.rank) ∈ dA.lhsNonContracting by decide)]
  rfl
theorem dA_lhs_1 (i : S384x24.Idx) (q : dA.contr.Idx) : (dA.lhsIdx i q 1).val = (q ⟨0, by decide⟩).val :=
  dA.lhsIdx_val_of_single rfl i q
theorem dA_rhs_0 (i : S384x24.Idx) (q : dA.contr.Idx) : (dA.rhsIdx i q 0).val = (q ⟨0, by decide⟩).val :=
  dA.rhsIdx_val_of_single rfl i q
theorem dA_rhs_1 (i : S384x24.Idx) (q : dA.contr.Idx) : (dA.rhsIdx i q 1).val = (i 1).val := by
  unfold DotDims.rhsIdx
  rw [dif_neg (show ¬(1 : Fin S24x24.rank) ∈ dA.rhsBatch by decide),
    dif_pos (show (1 : Fin S24x24.rank) ∈ dA.rhsNonContracting by decide)]
  rfl

theorem dB_lhs_0 (i : S384x384.Idx) (q : dB.contr.Idx) : (dB.lhsIdx i q 0).val = (i 0).val := by
  unfold DotDims.lhsIdx
  rw [dif_neg (show ¬(0 : Fin S384x24.rank) ∈ dB.lhsBatch by decide),
    dif_pos (show (0 : Fin S384x24.rank) ∈ dB.lhsNonContracting by decide)]
  rfl
theorem dB_lhs_1 (i : S384x384.Idx) (q : dB.contr.Idx) : (dB.lhsIdx i q 1).val = (q ⟨0, by decide⟩).val :=
  dB.lhsIdx_val_of_single rfl i q
theorem dB_rhs_0 (i : S384x384.Idx) (q : dB.contr.Idx) : (dB.rhsIdx i q 0).val = (i 1).val := by
  unfold DotDims.rhsIdx
  rw [dif_neg (show ¬(0 : Fin S384x24.rank) ∈ dB.rhsBatch by decide),
    dif_pos (show (0 : Fin S384x24.rank) ∈ dB.rhsNonContracting by decide)]
  rfl
theorem dB_rhs_1 (i : S384x384.Idx) (q : dB.contr.Idx) : (dB.rhsIdx i q 1).val = (q ⟨0, by decide⟩).val :=
  dB.rhsIdx_val_of_single rfl i q

/-! ### The two products as sums -/

/-- Entry (r, k) of the first product: row `r` of the left operand against column `k` of the right one. -/
theorem first_apply (A : FVec Ideal S384x24 .bf16) (B : FVec Ideal S24x24 .bf16) (r : Fin 384) (k : Fin 24) :
    matmul dA none A B (constant S384x24 .f32 0x00000000#32) (ix2 r k) = ∑ j : Fin 24, A (ix2 r j) * B (ix2 j k) := by
  simp only [matmul]
  rw [Ideal.matmul_constant_zero_apply, ← Equiv.sum_comp (contrEquiv1 dA 24 rfl rfl).symm]
  refine Finset.sum_congr rfl fun j _ => ?_
  have hj := contrEquiv1_symm_val dA 24 rfl rfl j
  have el : dA.lhsIdx (ix2 r k) ((contrEquiv1 dA 24 rfl rfl).symm j) = ix2 r j := funext fun a => Fin.ext (by
    match a with
    | ⟨0, _⟩ => exact dA_lhs_0 _ _
    | ⟨1, _⟩ => exact (dA_lhs_1 _ _).trans hj)
  have er : dA.rhsIdx (ix2 r k) ((contrEquiv1 dA 24 rfl rfl).symm j) = ix2 j k := funext fun a => Fin.ext (by
    match a with
    | ⟨0, _⟩ => exact (dA_rhs_0 _ _).trans hj
    | ⟨1, _⟩ => exact dA_rhs_1 _ _)
  rw [el, er]

/-- Entry (h, w) of the second product: row `h` of the left operand against ROW `w` of the right one. -/
theorem second_apply (A B : FVec Ideal S384x24 .bf16) (h w : Fin 384) :
    matmul dB none A B (constant S384x384 .f32 0x00000000#32) (ix2 h w) = ∑ k : Fin 24, A (ix2 h k) * B (ix2 w k) := by
  simp only [matmul]
  rw [Ideal.matmul_constant_zero_apply, ← Equiv.sum_comp (contrEquiv1 dB 24 rfl rfl).symm]
  refine Finset.sum_congr rfl fun k _ => ?_
  have hk := contrEquiv1_symm_val dB 24 rfl rfl k
  have el : dB.lhsIdx (ix2 h w) ((contrEquiv1 dB 24 rfl rfl).symm k) = ix2 h k := funext fun a => Fin.ext (by
    match a with
    | ⟨0, _⟩ => exact dB_lhs_0 _ _
    | ⟨1, _⟩ => exact (dB_lhs_1 _ _).trans hk)
  have er : dB.rhsIdx (ix2 h w) ((contrEquiv1 dB 24 rfl rfl).symm k) = ix2 w k := funext fun a => Fin.ext (by
    match a with
    | ⟨0, _⟩ => exact dB_rhs_0 _ _
    | ⟨1, _⟩ => exact (dB_rhs_1 _ _).trans hk)
  rw [el, er]

end Cert.KernelIdeal.MatmulRead

end
-- ==== Proof.Payload.lean ====
/-
  What the kernel body stores for one image, entry by entry. For each of the two images of a block the body
    · turns the image's 24 × 24 samples into flags (the comparison's bit, widened to a word and read as a number: 0 or 1),
    · spreads the flags to 384 × 384 by the two products with the selection matrix `E`,
    · multiplies the image's three channels by the spread flags, the same flags for each channel.
  Given that `E (r, k) = [r / 16 = k]`, each product against a row of `E` picks one term (`sum_sel_mul`), so the spread
  flag at pixel (h, w) is the flag of patch (w / 16, h / 16), and the stored entry (c, h, w) is
  image (c, h, w) · keep (samples (w / 16, h / 16)). The two changes of float format on the way (to bf16 and back) are the
  identity at the ideal values.
-/
import proofs.«169381_j64433099374846_2_alg».proof.Proof.Gen.KernelIdeal.Skeleton
import proofs.«169381_j64433099374846_2_alg».proof.Proof.MatmulRead
import proofs.«169381_j64433099374846_2_alg».proof.Proof.Spec
import Idealize.ShloMosaic.Lib.Pipeline.Value
import Idealize.ShloMosaic.Lib.ValueLayout
import Idealize.ShloMosaic.Lib.KernelVsHost

noncomputable section

open scoped BigOperators

namespace Cert.KernelIdeal.Payload

open Cert.KernelIdeal Cert.KernelIdeal.Gen Cert.KernelIdeal.MatmulRead
open Idealize.ShloMosaic Idealize.ShloMosaic.ValueIdx Cert.Occlude

/-! ### The flags of one image -/

/-- The flags as the body computes them from one image's samples. -/
def flags (M : FVec Ideal S24x24 .f32) : FVec Ideal S24x24 .bf16 :=
  truncf .bf16 (sitofp .f32 (extui 32 (cmpf .oge M (broadcast S24x24 (Scalar.ofBits .f32 0x3F000000#32))) natLt_1_32))
    bitsLt_bf16_f32

/-- A flag is the keep value of its sample: the one-bit comparison, widened without sign, is 0 or 1 as an integer too. -/
theorem flags_apply (M : FVec Ideal S24x24 .f32) (j : S24x24.Idx) : flags M j = keep (M j) := by
  show (((((Ideal.cmp .oge (M j) (Ideal.ofBits .f32 0x3F000000#32)).setWidth 32).toInt : ℝ)) : EReal) = _
  rw [toInt_setWidth_bit]
  unfold keep
  norm_cast

/-! ### The flags spread over the pixels -/

/-- The two products with the selection matrix. -/
def spread (E : FVec Ideal S384x24 .bf16) (M : FVec Ideal S24x24 .f32) : FVec Ideal S384x384 .f32 :=
  matmul dB none E
    (truncf .bf16 (matmul dA none E (flags M) (constant S384x24 .f32 0x00000000#32)) bitsLt_bf16_f32)
    (constant S384x384 .f32 0x00000000#32)

/-- With the selection matrix for `E`, the spread flag of pixel (h, w) is the flag of its patch, (w / 16, h / 16) in
    the samples' own order. -/
theorem spread_apply (E : FVec Ideal S384x24 .bf16) (hE : ∀ r k, E (ix2 r k) = sel r k) (M : FVec Ideal S24x24 .f32)
    (h w : Fin 384) : spread E M (ix2 h w) = keep (M (ix2 (patch w) (patch h))) := by
  have inner : ∀ k : Fin 24,
      (truncf .bf16 (matmul dA none E (flags M) (constant S384x24 .f32 0x00000000#32)) bitsLt_bf16_f32 :
        FVec Ideal S384x24 .bf16) (ix2 w k) = keep (M (ix2 (patch w) k)) := fun k => by
    rw [truncf_apply, first_apply]
    have e : (∑ j : Fin 24, E (ix2 w j) * flags M (ix2 j k)) = ∑ j : Fin 24, sel w j * keep (M (ix2 j k)) :=
      Finset.sum_congr rfl fun j _ => by rw [hE w j, flags_apply]
    rw [e]
    exact sum_sel_mul w fun j => keep (M (ix2 j k))
  unfold spread
  rw [second_apply]
  have e : (∑ k : Fin 24, E (ix2 h k)
        * (truncf .bf16 (matmul dA none E (flags M) (constant S384x24 .f32 0x00000000#32)) bitsLt_bf16_f32 :
            FVec Ideal S384x24 .bf16) (ix2 w k))
      = ∑ k : Fin 24, sel h k * keep (M (ix2 (patch w) k)) :=
    Finset.sum_congr rfl fun k _ => by rw [hE h k, inner k]
  rw [e]
  exact sum_sel_mul h fun k => keep (M (ix2 (patch w) k))

/-! ### One image's stored block -/

section Layout
variable {α : Type}

/-- A `[1, a, b]` array broadcast to `[m, a, b]` reads, at `(c, i, j)`, the operand at `(0, i, j)`. -/
theorem broadcastTo_1ab_mab_apply {m a b : ℕ} (ha : a ≠ 1) (hb : b ≠ 1) (v : (⟨3, ![1, a, b]⟩ : Shape).Idx → α)
    (h : (⟨3, ![1, a, b]⟩ : Shape).Broadcasts ⟨3, ![m, a, b]⟩) (c : Fin m) (i : Fin a) (j : Fin b) :
    broadcastTo ⟨3, ![m, a, b]⟩ v h (ix3 c i j) = v (ix3 (0 : Fin 1) i j) := by
  refine broadcastTo_apply v h (ix3 c i j) (ix3 (0 : Fin 1) i j) fun ax => ?_
  match ax with
  | ⟨0, _⟩ => rfl
  | ⟨1, _⟩ =>
    show i.val = if a = 1 then 0 else i.val
    rw [if_neg ha]
  | ⟨2, _⟩ =>
    show j.val = if b = 1 then 0 else j.val
    rw [if_neg hb]

end Layout

/-- One image (its three channels, as a [1, 3, 384, 384] piece) times the spread flags of its samples (a [1, 24, 24]
    piece), stored as a [1, 3, 384, 384] piece: the form both of the body's stores have. -/
def masked (E : FVec Ideal S384x24 .bf16) (S : Vec Ideal S1x24x24 .f32) (X : FVec Ideal S3x384x384 .f32) :
    FVec Ideal S1x3x384x384 .f32 :=
  shapeCast S1x3x384x384
    (mulf X
      (broadcastTo S3x384x384
        (shapeCast S1x384x384 (spread E (shapeCast S24x24 S shapeCasts_S1x24x24_S24x24)) shapeCasts_S384x384_S1x384x384)
        broadcasts_S1x384x384_S3x384x384))
    shapeCasts_S3x384x384_S1x3x384x384

/-- Entry (c, h, w) of a stored piece: the image's entry times the keep value of the pixel's patch. -/
theorem masked_apply (E : FVec Ideal S384x24 .bf16) (hE : ∀ r k, E (ix2 r k) = sel r k) (S : Vec Ideal S1x24x24 .f32)
    (X : FVec Ideal S3x384x384 .f32) (u : Fin 1) (c : Fin 3) (h w : Fin 384) :
    masked E S X (ix4 u c h w) = X (ix3 c h w) * keep (S (ix3 (0 : Fin 1) (patch w) (patch h))) := by
  unfold masked
  rw [shapeCast_abc_1abc_apply, mulf_apply,
    broadcastTo_1ab_mab_apply (by decide) (by decide), shapeCast_ab_1ab_apply, spread_apply E hE,
    shapeCast_1ab_ab_apply]

/-- The first store's payload is the masked first image … -/
theorem pay3_eq (v0 : Vec Ideal S384x24 .bf16) (v2 : Vec Ideal S1x24x24 .f32) (v12 : Vec Ideal S1x3x384x384 .f32) :
    k0_pay3 (F := Ideal) v0 v2 v12
      = masked v0 v2 (shapeCast S3x384x384 v12 shapeCasts_S1x3x384x384_S3x384x384) := by
  unfold k0_pay3 k0_pay2 masked spread flags
  rw [shapeCast_self]

/-- … and the second store's the masked second image. -/
theorem pay1_eq (v0 : Vec Ideal S384x24 .bf16) (v20 : Vec Ideal S1x24x24 .f32) (v30 : Vec Ideal S1x3x384x384 .f32) :
    k0_pay1 (F := Ideal) (k0_pay4 v0 v20) (k0_pay5 v30)
      = masked v0 v20 (shapeCast S3x384x384 v30 shapeCasts_S1x3x384x384_S3x384x384) := by
  unfold k0_pay1 k0_pay4 k0_pay5 k0_pay2 masked spread flags
  rw [shapeCast_self]

end Cert.KernelIdeal.Payload

end
-- ==== Proof.LibHostFold.lean ====
/-
  A fact about the operations of an inlined call, for any program. Such an operation writes its buffer through a typed
  reference, and the operation that consumes the value reads it back through the same reference: transports along
  "the buffer's type is the value's type" in opposite directions. What is read back is the value written, and
  conversely, whatever the buffer's type. With these two equations the transports between consecutive operations of a
  call cancel, and what is left of a host stretch's fold is a plain term of the operations' functions.
-/
import Idealize.ShloMosaic.Lib.StableHlo.Run

namespace Cert.LibHostFold

open Idealize.ShloMosaic Idealize.ShloMosaic.StableHlo

variable {sig : RefSig} {Val : EltTy → Type}

/-- Reading back through a typed reference what was written through it gives the value. -/
theorem ofBuf_toBuf {T : BufTy} (x : TRef sig T) (v : T.Contents Val) : x.ofBuf (x.toBuf v) = v := by
  unfold TRef.ofBuf TRef.toBuf
  simp

/-- Writing through a typed reference what was read through it gives the buffer's contents. -/
theorem toBuf_ofBuf {T : BufTy} (x : TRef sig T) (v : x.ref.ty.Contents Val) : x.toBuf (x.ofBuf v) = v := by
  unfold TRef.ofBuf TRef.toBuf
  simp

end Cert.LibHostFold
-- ==== Proof.HostE.lean ====
/-
  The selection matrix the kernel is given. Before the kernel runs, the host computes the [384, 24] array
  `E (r, k) = [r // 16 = k]` from two int32 ramps: jnp's floor division of the ramp 0 … 383 by 16, compared for
  equality with the ramp 0 … 23, the bit converted to a float. jnp spells a floor division by the truncating
  quotient `q` and a correction: `q − 1` where the operands' signs differ AND the remainder is not zero, else `q`.
  Here the dividend is a ramp value 0 ≤ r < 384 and the divisor is 16: the signs differ only at r = 0, where the
  remainder is 0, so the correction never applies, and the truncating quotient of two non-negative words is r / 16.
  Both facts are about 384 (resp. 24 × 24) explicit 32-bit words and are checked by evaluation.
-/
import proofs.«169381_j64433099374846_2_alg».proof.Proof.Gen.KernelIdeal.Frame
import proofs.«169381_j64433099374846_2_alg».proof.Proof.LibHostFold
import proofs.«169381_j64433099374846_2_alg».proof.Proof.Spec
import Idealize.ShloMosaic.Lib.StableHlo.Run
import Idealize.ShloMosaic.Lib.ValueIdx

noncomputable section

namespace Cert.KernelIdeal.HostE

open Cert.KernelIdeal Cert.KernelIdeal.Gen
open Idealize.ShloMosaic Idealize.ShloMosaic.TcCoe Idealize.SL.Sem Idealize.ShloMosaic.StableHlo
open Idealize.ShloMosaic.ValueIdx Cert.Occlude

/-- jnp's `floor_divide` of the ramp 0 … 383 by the constant 16, operation by operation as the host program has it:
    the truncating quotient, corrected by one where the signs differ and the remainder is not zero. -/
def rampDiv16 : IVec S384 32 :=
  select
    (andi
      (cmpi .ne (signi (iotaInDim S384 32 0)) (broadcastInDim S384 ![] bcast_S_S384 (signi (constantI S_ 32 16#32))))
      (cmpi .ne (Host.remsi (iotaInDim S384 32 0) (broadcastInDim S384 ![] bcast_S_S384 (constantI S_ 32 16#32)))
        (broadcastInDim S384 ![] bcast_S_S384 (constantI S_ 32 0#32))))
    (subi (Host.divsi (iotaInDim S384 32 0) (broadcastInDim S384 ![] bcast_S_S384 (constantI S_ 32 16#32)))
      (broadcastInDim S384 ![] bcast_S_S384 (constantI S_ 32 1#32)))
    (Host.divsi (iotaInDim S384 32 0) (broadcastInDim S384 ![] bcast_S_S384 (constantI S_ 32 16#32)))

/-- The comparison's bits: row `r`'s patch number against column `k`. -/
def selBits : IVec S384x24 1 :=
  cmpi .eq
    (broadcastInDim S384x24 ![0, 1] bcast_S384x1_S384x24_0_1 (broadcastInDim S384x1 ![0] bcast_S384_S384x1_0 rampDiv16))
    (broadcastInDim S384x24 ![0, 1] bcast_S1x24_S384x24_0_1 (broadcastInDim S1x24 ![1] bcast_S24_S1x24_1 (iotaInDim S24 32 0)))

/-- What the region finds in the array of its third operand: the host operations' composed term. -/
theorem V_main_v8 (m : (ℓ : Loc nD τ sig) → Buf (Elt Ideal) ℓ) (c : Dev nD) :
    (V (F := Ideal) m c main_v8 : S384x24.Idx → EReal) = (uitofp (F := Ideal) .bf16 selBits : S384x24.Idx → EReal) := by
  dsimp only [Gen.V]
  simp only [Gen.hostOps0, Gen.hostOps0_1, Gen.hostOps0_2, List.flatten_cons, List.flatten_nil, List.append_nil,
    List.cons_append, List.nil_append]
  after_results
  simp only [Cert.LibHostFold.ofBuf_toBuf, Cert.LibHostFold.toBuf_ofBuf]
  rfl

/-- On the ramp, the corrected quotient at `r` is the word of `r / 16`. -/
theorem rampDiv16_apply : ∀ r : Fin 384, rampDiv16 (ix1 r) = BitVec.ofNat 32 (r.val / 16) := by
  decide +kernel

/-- Two patch numbers are equal as 32-bit words exactly when they are equal. -/
theorem word_eq_iff : ∀ a b : Fin 24, (BitVec.ofNat 32 a.val == BitVec.ofNat 32 b.val) = decide (a.val = b.val) := by
  decide +kernel

/-- THE SELECTION MATRIX: entry (r, k) of the third operand's array is `1` when `r / 16 = k` and `0` otherwise. -/
theorem E_apply (m : (ℓ : Loc nD τ sig) → Buf (Elt Ideal) ℓ) (c : Dev nD) (r : Fin 384) (k : Fin 24) :
    (V (F := Ideal) m c main_v8 : S384x24.Idx → EReal) (ix2 r k) = sel r k := by
  rw [V_main_v8]
  show ((((IntOp.cmpi .eq (rampDiv16 (ix1 r)) (BitVec.ofNat 32 k.val)).toNat : ℝ) : EReal)) = _
  rw [rampDiv16_apply]
  show ((((BitVec.ofBool (BitVec.ofNat 32 (patch r).val == BitVec.ofNat 32 k.val)).toNat : ℝ) : EReal)) = _
  rw [word_eq_iff]
  unfold sel
  by_cases h : r.val / 16 = k.val
  · rw [if_pos h, decide_eq_true (show (patch r).val = k.val from h)]; simp
  · rw [if_neg h, decide_eq_false (show ¬ (patch r).val = k.val from h)]; simp

end Cert.KernelIdeal.HostE

end
-- ==== Proof.Blocks.lean ====
/-
  From what the body stores to the whole result array. The grid has 32 points; point `t` works on images 2t and 2t + 1:
  its blocks of `x` and of the result are rows 2t, 2t + 1 of the batch axis (all channels, all pixels), its block of the
  samples rows 2t, 2t + 1 (all 24 × 24 patches), and every point sees the whole selection matrix.
    · The body's two stores are the two images of the block, each the image times the keep value of the pixel's patch
      (Payload), so what the body leaves is the specification's formula on the block (`body_leaves_occluded_block`).
    · Read through point `t`'s blocks this is block `t` of `occluded x mask`: image `u` of the block is image 2t + u of the batch
      in `x`, in the samples and in the result alike (`point_writes_occluded_block`).
    · Image `b` lies in the block of point b / 2, so the 32 blocks cover the array (`image_in_some_block`), and the array ends holding
      `occluded x mask` (`result_array`).
-/
import proofs.«169381_j64433099374846_2_alg».proof.Proof.Gen.KernelIdeal.Value
import proofs.«169381_j64433099374846_2_alg».proof.Proof.Payload
import proofs.«169381_j64433099374846_2_alg».proof.Proof.HostE
import proofs.«169381_j64433099374846_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Payload
open Idealize.ShloMosaic Idealize.ShloMosaic.TcCoe Idealize.SL.Sem
open Idealize.ShloMosaic.ValueIdx Cert.Occlude
open Idealize.ShloMosaic.Pipeline (Dat)

/-! ### What the body leaves in the result's block -/

/-- The specification's formula on a block of two images and their samples. -/
def occludedBlock (x0 : Vec Ideal S2x3x384x384 .f32) (x1 : Vec Ideal S2x24x24 .f32) : Vec Ideal S2x3x384x384 .f32 :=
  fun y => x0 y * keep (x1 (ix3 (y 0) (patch (y 3)) (patch (y 2))))

theorem zero_offsets2 : (![0, 0] : Fin 2 → Nat) = fun _ => 0 := funext fun a => by fin_cases a <;> rfl

/-- Image `o` of the block (`o` = 0 or 1): the piece stored for it — the image read at offset `o` of the block of `x`,
    masked by the samples read at offset `o` of the samples' block — is the formula at the piece's place in the block. -/
theorem image_piece (x0 : Vec Ideal S2x3x384x384 .f32) (x1 : Vec Ideal S2x24x24 .f32) (x2 : Vec Ideal S384x24 .bf16)
    (hE : ∀ r k, x2 (ix2 r k) = sel r k) (o : Nat)
    (inbX : ∀ a, (![o, 0, 0, 0] : Fin 4 → Nat) a + S1x3x384x384.size a ≤ S2x3x384x384.size a)
    (inbM : ∀ a, (![o, 0, 0] : Fin 3 → Nat) a + S1x24x24.size a ≤ S2x24x24.size a)
    (x : S1x3x384x384.Idx) :
    masked (View.ld x2 r0_0) (View.ld x1 (Rect.unit (s := S2x24x24) ![o, 0, 0] S1x24x24.size inbM))
        (shapeCast S3x384x384 (View.ld x0 (Rect.unit (s := S2x3x384x384) ![o, 0, 0, 0] S1x3x384x384.size inbX))
          shapeCasts_S1x3x384x384_S3x384x384) x
      = occludedBlock x0 x1 ((Rect.unit (s := S2x3x384x384) ![o, 0, 0, 0] S1x3x384x384.size inbX).emb x) := by
  obtain ⟨u, c, h, w, rfl⟩ : ∃ (u : Fin 1) (c : Fin 3) (h w : Fin 384), x = ix4 u c h w :=
    ⟨x 0, x 1, x 2, x 3, eq_ix4 x⟩
  have hu : u.val = 0 := by omega
  rw [masked_apply _ (fun r k => by rw [View.ld_unit_zero (S := S384x24) zero_offsets2]; exact hE r k),
    shapeCast_1abc_abc_apply]
  unfold occludedBlock
  have eX : (Rect.unit (s := S2x3x384x384) ![o, 0, 0, 0] S1x3x384x384.size inbX).idx (ix4 (0 : Fin 1) c h w)
      = (Rect.unit (s := S2x3x384x384) ![o, 0, 0, 0] S1x3x384x384.size inbX).emb (ix4 u c h w) :=
    funext fun a => Fin.ext (by
      match a with
      | ⟨0, _⟩ => show o + 1 * 0 = o + 1 * u.val; omega
      | ⟨1, _⟩ => rfl
      | ⟨2, _⟩ => rfl
      | ⟨3, _⟩ => rfl)
  have eM : (Rect.unit (s := S2x24x24) ![o, 0, 0] S1x24x24.size inbM).idx (ix3 (0 : Fin 1) (patch w) (patch h))
      = ix3 ((Rect.unit (s := S2x3x384x384) ![o, 0, 0, 0] S1x3x384x384.size inbX).emb (ix4 u c h w) 0)
          (patch ((Rect.unit (s := S2x3x384x384) ![o, 0, 0, 0] S1x3x384x384.size inbX).emb (ix4 u c h w) 3))
          (patch ((Rect.unit (s := S2x3x384x384) ![o, 0, 0, 0] S1x3x384x384.size inbX).emb (ix4 u c h w) 2)) :=
    funext fun a => Fin.ext (by
      match a with
      | ⟨0, _⟩ => show o + 1 * 0 = o + 1 * u.val; omega
      | ⟨1, _⟩ => show 0 + 1 * (w.val / 16) = (0 + 1 * w.val) / 16; omega
      | ⟨2, _⟩ => show 0 + 1 * (h.val / 16) = (0 + 1 * h.val) / 16; omega)
  show x0 ((Rect.unit (s := S2x3x384x384) ![o, 0, 0, 0] S1x3x384x384.size inbX).idx (ix4 (0 : Fin 1) c h w))
      * keep (x1 ((Rect.unit (s := S2x24x24) ![o, 0, 0] S1x24x24.size inbM).idx (ix3 (0 : Fin 1) (patch w) (patch h)))) = _
  rw [eX, eM]
  rfl

/-- WHAT THE BODY LEAVES in the result's block, given the selection matrix in its third operand: the formula on the block.
    The two stored pieces are the block's two images; each is the formula there, and together they cover the block. -/
theorem body_leaves_occluded_block (x0 : Vec Ideal S2x3x384x384 .f32) (x1 : Vec Ideal S2x24x24 .f32) (x2 : Vec Ideal S384x24 .bf16)
    (hE : ∀ r k, x2 (ix2 r k) = sel r k) : out0_3 x0 x1 x2 = occludedBlock x0 x1 := by
  funext y
  unfold out0_3
  rw [pay1_eq, pay3_eq]
  refine View.canon_apply_of_pieces (Val := Elt Ideal) (occludedBlock x0 x1) _ (fun p hp => ?_) y (cover0_3 _ _ y)
  rcases List.mem_cons.mp hp with rfl | hp
  · exact image_piece x0 x1 x2 hE 1 _ _
  rcases List.mem_cons.mp hp with rfl | hp
  · exact image_piece x0 x1 x2 hE 0 _ _
  · exact absurd hp List.not_mem_nil

/-- The formula on a block is `occluded` at the block's place in the arrays: when an entry of the block of `x` sits at array
    index `e`, and the block's sample for it sits at (batch of `e`, patch column of `e`, patch row of `e`). -/
theorem block_entry_is_occluded (X : S64x3x384x384.Idx → EReal) (M : S64x24x24.Idx → EReal) (e0 e : S64x3x384x384.Idx)
    (e1 : S64x24x24.Idx) (h0 : e0 = e) (h1 : e1 = ix3 (e 0) (patch (e 3)) (patch (e 2))) :
    X e0 * keep (M e1) = occluded X M e := by
  subst h0 h1
  rfl

/-! ### Through the windows -/

variable (m : (ℓ : Loc nD τ sig) → Buf (Elt Ideal) ℓ) (ρ : Dev nD → PrngReg)

/-- The printed index maps over the 32 points: point `t`'s blocks of `x`, of the samples and of the result have block
    index `t` on the batch axis and 0 elsewhere; the selection matrix's block index is (0, 0). -/
theorem block_indices : ∀ t : Fin cfg0.N,
    win0_3.index t (0 : Fin 4) = t.val ∧ win0_3.index t (1 : Fin 4) = 0 ∧ win0_3.index t (2 : Fin 4) = 0
    ∧ win0_3.index t (3 : Fin 4) = 0
    ∧ win0_0.index t (0 : Fin 4) = t.val ∧ win0_0.index t (1 : Fin 4) = 0 ∧ win0_0.index t (2 : Fin 4) = 0
    ∧ win0_0.index t (3 : Fin 4) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0 :=
  (by decide +kernel : ∀ t : Fin grid0.N, _)

/-- Every point's block of the third operand is the whole selection matrix. -/
theorem selection_block (c : Dev nD) (t : Fin cfg0.N) (r : Fin 384) (k : Fin 24) : iblk m c 2 t (ix2 r k) = sel r k := by
  obtain ⟨-, -, -, -, -, -, -, -, -, -, -, e0, e1⟩ := block_indices t
  have he : ((cfg0.win 2).blk t).view.emb (ix2 r k) = ix2 r k := funext fun a => Fin.ext (by
    match a with
    | ⟨0, _⟩ => show win0_2.index t (0 : Fin 2) * 384 + 1 * r.val = r.val; omega
    | ⟨1, _⟩ => show win0_2.index t (1 : Fin 2) * 24 + 1 * k.val = k.val; omega)
  show V m c main_v8 (((cfg0.win 2).blk t).view.emb (ix2 r k)) = _
  rw [he]
  exact HostE.E_apply m c r k

/-- WHAT POINT `t` WRITES BACK is block `t` of `occluded` of the argument arrays as the region finds them. -/
theorem point_writes_occluded_block (c : Dev nD) (t : Fin cfg0.N) :
    (dats m 0 c).flushed 3 t
      = ((cfg0.win 3).blk t).view.read (Elt Ideal) (occluded (V m c main_arg0) (V m c main_arg1)) := by
  rw [Value.flushed3, body_leaves_occluded_block (iblk m c 0 t) (iblk m c 1 t) (iblk m c 2 t) (selection_block m c t)]
  obtain ⟨a0, a1, a2, a3, b0, b1, b2, b3, c0, c1, c2, -, -⟩ := block_indices t
  funext j
  obtain ⟨u, ch, h, w, rfl⟩ : ∃ (u : Fin 2) (ch : Fin 3) (h w : Fin 384), j = ix4 u ch h w :=
    ⟨j 0, j 1, j 2, j 3, eq_ix4 j⟩
  have h0 : ((cfg0.win 0).blk t).view.emb (ix4 u ch h w) = ((cfg0.win 3).blk t).view.emb (ix4 u ch h w) :=
    funext fun a => Fin.ext (by
      match a with
      | ⟨0, _⟩ => show win0_0.index t (0 : Fin 4) * 2 + 1 * u.val = win0_3.index t (0 : Fin 4) * 2 + 1 * u.val; omega
      | ⟨1, _⟩ => show win0_0.index t (1 : Fin 4) * 3 + 1 * ch.val = win0_3.index t (1 : Fin 4) * 3 + 1 * ch.val; omega
      | ⟨2, _⟩ => show win0_0.index t (2 : Fin 4) * 384 + 1 * h.val = win0_3.index t (2 : Fin 4) * 384 + 1 * h.val; omega
      | ⟨3, _⟩ => show win0_0.index t (3 : Fin 4) * 384 + 1 * w.val = win0_3.index t (3 : Fin 4) * 384 + 1 * w.val; omega)
  have h1 : ((cfg0.win 1).blk t).view.emb (ix3 u (patch w) (patch h))
      = ix3 (((cfg0.win 3).blk t).view.emb (ix4 u ch h w) 0)
          (patch (((cfg0.win 3).blk t).view.emb (ix4 u ch h w) 3))
          (patch (((cfg0.win 3).blk t).view.emb (ix4 u ch h w) 2)) :=
    funext fun a => Fin.ext (by
      match a with
      | ⟨0, _⟩ => show win0_1.index t (0 : Fin 3) * 2 + 1 * u.val = win0_3.index t (0 : Fin 4) * 2 + 1 * u.val; omega
      | ⟨1, _⟩ =>
        show win0_1.index t (1 : Fin 3) * 24 + 1 * (w.val / 16) = (win0_3.index t (3 : Fin 4) * 384 + 1 * w.val) / 16
        omega
      | ⟨2, _⟩ =>
        show win0_1.index t (2 : Fin 3) * 24 + 1 * (h.val / 16) = (win0_3.index t (2 : Fin 4) * 384 + 1 * h.val) / 16
        omega)
  exact block_entry_is_occluded (V m c main_arg0) (V m c main_arg1) _ _ _ h0 h1

/-! ### The blocks tile the array -/

/-- An index of the array is in point `t`'s block iff each coordinate is in the block's range on its axis. -/
theorem mem_result_block_iff (t : Fin cfg0.N) (i : S64x3x384x384.Idx) :
    i ∈ ((cfg0.win 3).blk t).view.set ↔ ∀ a : Fin 4, win0_3.index t a * S2x3x384x384.size a ≤ (i a).val
      ∧ (i a).val < win0_3.index t a * S2x3x384x384.size a + S2x3x384x384.size a := by
  show i ∈ ((View.whole main_v9).slice (win0_3.rect t)).set ↔ _
  rw [View.set_slice_whole, Rect.mem_set_unit]
  exact Iff.rfl

/-- Image `b` lies in the block of point `b / 2`. -/
theorem image_in_some_block (i : S64x3x384x384.Idx) :
    ∃ t : Fin cfg0.N, (cfg0.win 3).flush t = true ∧ i ∈ ((cfg0.win 3).blk t).view.set := by
  have hi0 : (i 0).val < 64 := (i 0).isLt
  have hi1 : (i 1).val < 3 := (i 1).isLt
  have hi2 : (i 2).val < 384 := (i 2).isLt
  have hi3 : (i 3).val < 384 := (i 3).isLt
  have hN : (i 0).val / 2 < cfg0.N := by show (i 0).val / 2 < grid0.N; rw [N_0]; omega
  obtain ⟨a0, a1, a2, a3, -⟩ := block_indices ⟨(i 0).val / 2, hN⟩
  refine ⟨⟨(i 0).val / 2, hN⟩, flush0_3 _, ?_⟩
  rw [mem_result_block_iff]
  intro a
  match a with
  | ⟨0, _⟩ =>
    show win0_3.index ⟨(i 0).val / 2, hN⟩ (0 : Fin 4) * 2 ≤ (i 0).val
      ∧ (i 0).val < win0_3.index ⟨(i 0).val / 2, hN⟩ (0 : Fin 4) * 2 + 2
    rw [a0]; show (i 0).val / 2 * 2 ≤ (i 0).val ∧ (i 0).val < (i 0).val / 2 * 2 + 2; omega
  | ⟨1, _⟩ =>
    show win0_3.index ⟨(i 0).val / 2, hN⟩ (1 : Fin 4) * 3 ≤ (i 1).val
      ∧ (i 1).val < win0_3.index ⟨(i 0).val / 2, hN⟩ (1 : Fin 4) * 3 + 3
    omega
  | ⟨2, _⟩ =>
    show win0_3.index ⟨(i 0).val / 2, hN⟩ (2 : Fin 4) * 384 ≤ (i 2).val
      ∧ (i 2).val < win0_3.index ⟨(i 0).val / 2, hN⟩ (2 : Fin 4) * 384 + 384
    omega
  | ⟨3, _⟩ =>
    show win0_3.index ⟨(i 0).val / 2, hN⟩ (3 : Fin 4) * 384 ≤ (i 3).val
      ∧ (i 3).val < win0_3.index ⟨(i 0).val / 2, hN⟩ (3 : Fin 4) * 384 + 384
    omega

/-! ### The array after the run, and the run -/

/-- THE RESULT ARRAY after the run is `occluded` of the argument arrays as launched. -/
theorem result_array (c : Dev nD) :
    (dats m 0 c).arrAt 3 cfg0.N
      = occluded (m ((c : Thread nD τ).loc main_arg0)) (m ((c : Thread nD τ).loc main_arg1)) := by
  rw [(dats m 0 c).arrAt_eq_of_cover 3 (occluded (V m c main_arg0) (V m c main_arg1)) (fun t _ => point_writes_occluded_block m c t) image_in_some_block,
    V_main_arg0, V_main_arg1]

/-- The kernel's run with its result named: every weakly fair execution terminates with the result array at `occluded` of the
    arguments and the arguments unchanged. -/
theorem run_occluded : θ_run defs (onTc (τ := τ) (main (F := Ideal))) ⟨m, fun _ => 0, ρ⟩ fun r => ∀ c : Dev nD,
      r.2.mem ((c : Thread nD τ).loc main_v9)
        = occluded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩) (Value.run_blocks m ρ)

end Cert.KernelIdeal.Blocks

end
-- ==== Proof.Reference.lean ====
/-
  The reference computes the specification. It views `x` as [64, 3, 24, 16, 24, 16] — pixel row h as (patch row h / 16,
  row inside the patch h % 16), pixel column w likewise —, multiplies by the keep flags transposed to (batch, patch row,
  patch column) and broadcast over the channel and the two in-patch axes, and views the product as [64, 3, 384, 384]
  again. A reshape keeps the row-major position, and position (b, c, h, w) of the rank-4 array is position
  (b, c, h / 16, h % 16, w / 16, w % 16) of the rank-6 one because 16 · (h / 16) + h % 16 = h. So entry (b, c, h, w) of the
  result is x (b, c, h, w) · keep (mask (b, w / 16, h / 16)): the transpose puts the patch COLUMN back in the sample
  array's second place.
-/
import proofs.«169381_j64433099374846_2_alg».proof.Proof.Gen.ReferenceIdeal.Read
import proofs.«169381_j64433099374846_2_alg».proof.Proof.Spec
import Idealize.ShloMosaic.Lib.Pipeline.Value
import Idealize.ShloMosaic.Lib.ValueIdx
import Idealize.ShloMosaic.Lib.ValueIdxRank6

noncomputable section

namespace Cert.ReferenceIdeal.RefValue

open Cert.ReferenceIdeal Cert.ReferenceIdeal.Gen Cert.ReferenceIdeal.Read
open Idealize.ShloMosaic Idealize.ShloMosaic.TcCoe Idealize.SL.Sem
open Idealize.ShloMosaic.ValueIdx Cert.Occlude

/-- A pixel coordinate's place inside its patch. -/
def inPatch (r : Fin 384) : Fin 16 := ⟨r.val % 16, Nat.mod_lt _ (by decide)⟩

/-- Pixel (b, c, h, w) in the six-axis view. -/
abbrev six (b : Fin 64) (c : Fin 3) (h w : Fin 384) : S64x3x24x16x24x16.Idx :=
  ix6 b c (patch h) (inPatch h) (patch w) (inPatch w)

/-- The two views name the same row-major position. -/
theorem pos_six (b : Fin 64) (c : Fin 3) (h w : Fin 384) :
    (S64x3x24x16x24x16.rowMajor (six b c h w)).val = (S64x3x384x384.rowMajor (ix4 b c h w)).val := by
  rw [Shape.rowMajor_val_six, Shape.rowMajor_val_four]
  show ((((b.val * 3 + c.val) * 24 + h.val / 16) * 16 + h.val % 16) * 24 + w.val / 16) * 16 + w.val % 16
    = ((b.val * 3 + c.val) * 384 + h.val) * 384 + w.val
  omega

/-- The sample the reference's broadcasts and transpose lead to from pixel (b, c, h, w): (b, w / 16, h / 16). -/
theorem sample_idx (b : Fin 64) (c : Fin 3) (h w : Fin 384) :
    idx_main_v3 (idx_main_v4 (idx_main_v6 (six b c h w))) = ix3 b (patch w) (patch h) :=
  funext fun a => Fin.ext (by match a with | ⟨0, _⟩ => rfl | ⟨1, _⟩ => rfl | ⟨2, _⟩ => rfl)

/-- THE REFERENCE IS THE SPECIFICATION: its last stage, as a function of the two argument arrays, is `occluded`. -/
theorem reference_is_occluded (x0 : S64x3x384x384.Idx → EReal) (x1 : S64x24x24.Idx → EReal) :
    val_main_v8 (F := Ideal) x0 x1 = occluded x0 x1 := by
  funext i
  obtain ⟨b, c, h, w, rfl⟩ : ∃ (b : Fin 64) (c : Fin 3) (h w : Fin 384), i = ix4 b c h w :=
    ⟨i 0, i 1, i 2, i 3, eq_ix4 i⟩
  unfold val_main_v8
  rw [shapeCast_apply _ shapeCasts_S64x3x24x16x24x16_S64x3x384x384 (ix4 b c h w) (six b c h w) (pos_six b c h w),
    val_main_v7_apply]
  unfold val_main_v5
  rw [shapeCast_apply x0 shapeCasts_S64x3x384x384_S64x3x24x16x24x16 (six b c h w) (ix4 b c h w) (pos_six b c h w).symm,
    val_main_v6_apply, val_main_v4_apply, val_main_v3_apply, val_main_v2_apply, val_main_v1_apply, val_main_v0_apply,
    val_main_cst_apply, sample_idx]
  rfl

end Cert.ReferenceIdeal.RefValue

end
-- ==== Proof.lean ====
/-
  Patch occlusion: a batch of images `x : [64, 3, 384, 384]` with every 16 × 16 patch either kept or zeroed, a patch
  kept exactly when its sample in `mask : [64, 24, 24]` (indexed batch, patch column, patch row) is at least one half.
  Both programs compute

      occluded x mask (b, c, h, w) = x (b, c, h, w) · keep (mask (b, w / 16, h / 16)),      keep μ = 1 if μ ≥ ½, else 0

  on the extended reals (Proof/Spec.lean).
    · The reference views `x` by patches (a reshape to six axes), multiplies by the transposed, broadcast keep flags and
      reshapes back: Proof/Reference.lean reads its last stage at an index and finds `occluded`.
    · The kernel works on two images per grid point. It is handed the 0/1 selection matrix `E (r, k) = [r / 16 = k]`, which
      the host builds from two integer ramps (Proof/HostE.lean), and spreads each image's 24 × 24 flags to 384 × 384 by two
      products with `E` (Proof/MatmulRead.lean: each product entry is a 24-term sum; Proof/Payload.lean: a sum against a row
      of `E` has one term that is not zero, so the spread flag of pixel (h, w) is the flag of patch (w / 16, h / 16)).
      Proof/Blocks.lean carries this from the body's two stores to the point's block and, the 32 blocks tiling the batch
      axis, to the whole result array.
  The only law used is that a sum against a 0/1 row with a single 1 is the selected term; `0 · y = 0` and `1 · y = y` hold
  for every extended real `y`, so finiteness of the inputs is never used. The kernel's frames are the generated ones; the
  reference's frame is its generated run with the result dropped; the idealization rewrote nothing, so `preserves` is
  `True`.
-/
import proofs.«169381_j64433099374846_2_alg».proof.Defs
import proofs.«169381_j64433099374846_2_alg».proof.Proof.Gen.Kernel
import proofs.«169381_j64433099374846_2_alg».proof.Proof.Gen.Kernel.Skeleton
import proofs.«169381_j64433099374846_2_alg».proof.Proof.Gen.Kernel.Launch
import proofs.«169381_j64433099374846_2_alg».proof.Proof.Gen.Kernel.Points
import proofs.«169381_j64433099374846_2_alg».proof.Proof.Gen.Kernel.Frame
import proofs.«169381_j64433099374846_2_alg».proof.Proof.Gen.KernelIdeal
import proofs.«169381_j64433099374846_2_alg».proof.Proof.Gen.KernelIdeal.Skeleton
import proofs.«169381_j64433099374846_2_alg».proof.Proof.Gen.KernelIdeal.Launch
import proofs.«169381_j64433099374846_2_alg».proof.Proof.Gen.KernelIdeal.Points
import proofs.«169381_j64433099374846_2_alg».proof.Proof.Gen.KernelIdeal.Frame
import proofs.«169381_j64433099374846_2_alg».proof.Proof.Gen.ReferenceIdeal
import proofs.«169381_j64433099374846_2_alg».proof.Proof.Gen.Pre_finite_inputs
import proofs.«169381_j64433099374846_2_alg».proof.Proof.Gen.KernelIdeal.Value
import proofs.«169381_j64433099374846_2_alg».proof.Proof.Gen.ReferenceIdeal.Run
import proofs.«169381_j64433099374846_2_alg».proof.Proof.Gen.ReferenceIdeal.Read
import proofs.«169381_j64433099374846_2_alg».proof.Proof.Spec
import proofs.«169381_j64433099374846_2_alg».proof.Proof.Blocks
import proofs.«169381_j64433099374846_2_alg».proof.Proof.Reference
import Idealize.ShloMosaic.Adequacy
import Idealize.ShloMosaic.Init

noncomputable section

namespace Cert.Proof

open Idealize.ShloMosaic Idealize.ShloMosaic.TcCoe Idealize.SL.Sem

/-- At the ideal values both programs, run from memories that agree on `x` and `mask`, end with the result array at
    `occluded x mask`: the kernel's by Proof/Blocks.lean, the reference's by its generated run and Proof/Reference.lean. -/
theorem algebraic : Cert.algebraic_KernelIdeal_ReferenceIdeal := by
  intro m ρ m' ρ' _ hagree
  refine ⟨fun c => Cert.Occlude.occluded (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Blocks.run_occluded m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Read.val_main_v8_eq _ _).trans
    ((Cert.ReferenceIdeal.RefValue.reference_is_occluded _ _).trans
      (congrArg₂ Cert.Occlude.occluded (hagree c).1 (hagree c).2))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  algebraic⟩

end Cert.Proof

end
